-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1x4096 : Shape := ⟨3, ![8, 1, 4096]⟩
abbrev S8x1x1024 : Shape := ⟨3, ![8, 1, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1x4096 : S_.BroadcastsInDim S8x1x4096 (![] : Fin 0 → Fin S8x1x4096.rank)
  reducesTo_S8x1x4096_S_d0_1_2 : S8x1x4096.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1x1024 .f32 := Host.absf main_arg4
  let main_cst_6 : FVec F S_ .f32 := constant S_ .f32 0x7F800000#32
  let main_v20 : FVec F S8x1x1024 .f32 := broadcastInDim S8x1x1024 ![] bcast_S_S8x1x1024 main_cst_6
  let main_v21 : IVec S8x1x1024 1 := cmpf .olt main_v19 main_v20
  let main_c_7 : IVec S_ 1 := constantI S_ 1 1#1
  let main_v22 : IVec S_ 1 := (fun x v => Host.reduce IntOp.andi x v reducesTo_S8x1x1024_S_d0_1_2 h_S_) main_v21 main_c_7
  let main_v23 : IVec S_ 1 := andi main_v18 main_v22
  main_v23

def fn {F : FTy → Type} [FloatOps F] (main_arg0 : FVec F S8x4096x1024 .f32) (main_arg1 : FVec F S8x4096x1024 .f32) (main_arg2 : FVec F S8x1x4096 .f32) (main_arg3 : FVec F S8x4096x1024 .f32) (main_arg4 : FVec F S8x1x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x4096x1024 : Shape := ⟨3, ![8, 4096, 1024]⟩
abbrev S8x1x4096 : Shape := ⟨3, ![8, 1, 4096]⟩
abbrev S8x1x1024 : Shape := ⟨3, ![8, 1, 1024]⟩
abbrev S1x256x1024 : Shape := ⟨3, ![1, 256, 1024]⟩
abbrev S1x1024x1024 : Shape := ⟨3, ![1, 1024, 1024]⟩
abbrev S1x1x1024 : Shape := ⟨3, ![1, 1, 1024]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4096x1024.size a
  hwx0_0 : ∀ i : grid0.Coords, EltTy.bits .f32 = 32 ∨ (Rect.block (s := S8x4096x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x4096x1024.size a
  hwx0_5 : ∀ i : grid0.Coords, EltTy.bits .f32 = 32 ∨ (Rect.block (s := S8x4096x1024) S1x256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x1x4096 : Shape := ⟨3, ![8, 1, 4096]⟩
abbrev S8x1x1024 : Shape := ⟨3, ![8, 1, 1024]⟩
abbrev S8x4096x4096 : Shape := ⟨3, ![8, 4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x4096x4096, .f32⟩
  | .hbm, ⟨6, _⟩ => ⟨S8x4096x4096, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S8x1x1024_S8x4096x1024_0_1_2 : S8x1x1024.BroadcastsInDim S8x4096x1024 (![0, 1, 2] : Fin 3 → Fin S8x4096x1024.rank)
  dot_S8x4096x1024_S8x4096x1024_S8x4096x4096_2_2_1_1_0_0_wf : DotDims.WF S8x4096x1024 S8x4096x1024 S8x4096x4096 [2] [2] [1] [1] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x4096x1024_S8x4096x4096_2_2_1_1_0_0 : DotDims S8x4096x1024 S8x4096x1024 S8x4096x4096 where
  lhsContracting := [2]
  rhsContracting := [2]
  lhsNonContracting := [1]
  rhsNonContracting := [1]
  lhsBatch := [0]
  rhsBatch := [0]
  wf := dot_S8x4096x1024_S8x4096x1024_S8x4096x4096_2_2_1_1_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«118817_j6571299962932_2_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.KernelPayload.lean ====
/-
  What the kernel's body computes at one grid point, read entry by entry on the extended reals.

  At a grid point the body holds a block of 256 tokens `x` (1024 features each), the first-layer weights `w₁` and
  biases `b₁` of 1024 hidden units, those units' second-layer weights `w₂`, the second bias `b₂`, and a running
  total `acc` of shape [256, 1024]. It adds to `acc(p, d)` the point's partial product
    Σ_j max(Σ_k x(p,k) · w₁(j,k) + b₁(j), 0) · w₂(j,d)        (j over the point's 1024 hidden units),
  starts the total at zero on the first point of a run, and on the last adds `b₂(d)` and stores the block. A change of
  float format is the identity on the extended reals, so the casts to the short format before each product vanish.
-/
import proofs.«118817_j6571299962932_2_alg».proof.Proof.Gen.KernelIdeal.Skeleton
import proofs.«118817_j6571299962932_2_alg».proof.Proof.LibRowOpsFormats
import proofs.«118817_j6571299962932_2_alg».proof.Proof.LibColsMatmul
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

variable (x0 : Vec Ideal S1x256x1024 .f32) (x1 : Vec Ideal S1x1024x1024 .f32) (x2 : Vec Ideal S1x1x1024 .f32)
  (x3 : Vec Ideal S1x1024x1024 .f32) (x4 : Vec Ideal S1x1x1024 .f32) (acc : Vec Ideal S256x1024 .f32)

/-- The first layer's pre-activation before the bias: tokens against hidden units' weight rows. -/
def pre : FVec Ideal S256x1024 .f32 :=
  matmul dot_S256x1024_S1024x1024_S256x1024_1_1_0_0_n_n none
    (truncf .bf16 (shapeCast S256x1024 x0 shapeCasts_S1x256x1024_S256x1024) bitsLt_bf16_f32)
    (truncf .bf16 (shapeCast S1024x1024 x1 shapeCasts_S1x1024x1024_S1024x1024) bitsLt_bf16_f32)
    (constant S256x1024 .f32 0x00000000#32)

/-- The hidden activations: bias added, rectified. -/
def act : FVec Ideal S256x1024 .bf16 :=
  truncf .bf16 (maximumf (addf (pre x0 x1)
      (broadcastTo S256x1024 (shapeCast S1x1024 x2 shapeCasts_S1x1x1024_S1x1024) broadcasts_S1x1024_S256x1024))
    (broadcast S256x1024 (Scalar.ofBits .f32 0x00000000#32))) bitsLt_bf16_f32

/-- The point's partial second-layer product. -/
def part : FVec Ideal S256x1024 .f32 :=
  matmul dot_S256x1024_S1024x1024_S256x1024_1_0_0_1_n_n none (act x0 x1 x2)
    (truncf .bf16 (shapeCast S1024x1024 x3 shapeCasts_S1x1024x1024_S1024x1024) bitsLt_bf16_f32)
    (constant S256x1024 .f32 0x00000000#32)

/-- The accumulating store's value is the running total plus the point's partial product. -/
theorem pay2_eq : k0_pay2 (F := Ideal) x0 x1 x2 x3 acc
    = shapeCast S256x1024 (addf acc (part x0 x1 x2 x3)) shapeCasts_S256x1024_S256x1024 := rfl

/-- The first layer's product at token p and hidden unit j: the token's features against the unit's weight row. -/
theorem pre_apply (p : Fin 256) (j : Fin 1024) :
    pre x0 x1 (ix2 p j) = ∑ k : Fin 1024, x0 (ix3 (0 : Fin 1) p k) * x1 (ix3 (0 : Fin 1) j k) := by
  unfold pre
  refine (RowOps.rows_matmul dot_S256x1024_S1024x1024_S256x1024_1_1_0_0_n_n_wf _ rfl _ _ p j).trans
    (Finset.sum_congr rfl fun k _ => ?_)
  show shapeCast S256x1024 x0 _ (ix2 p k) * shapeCast S1024x1024 x1 _ (ix2 j k) = _
  rw [shapeCast_1ab_ab_apply, shapeCast_1ab_ab_apply]

/-- The activation at token p and hidden unit j. -/
theorem act_apply (p : Fin 256) (j : Fin 1024) :
    act x0 x1 x2 (ix2 p j)
      = max ((∑ k : Fin 1024, x0 (ix3 (0 : Fin 1) p k) * x1 (ix3 (0 : Fin 1) j k)) + x2 (ix3 (0 : Fin 1) (0 : Fin 1) j)) 0 := by
  show max (pre x0 x1 (ix2 p j)
      + broadcastTo S256x1024 (shapeCast S1x1024 x2 shapeCasts_S1x1x1024_S1x1024) broadcasts_S1x1024_S256x1024 (ix2 p j))
    (Ideal.ofBits .f32 0x00000000#32) = _
  rw [pre_apply, broadcastTo_1b_ab_apply, shapeCast_1ab_ab_apply, Ideal.ofBits_zero_f32]

/-- The point's addend at token p and output feature d: the sum over the point's hidden units. -/
def partialSum (p : Fin 256) (d : Fin 1024) : EReal :=
  ∑ j : Fin 1024,
    max ((∑ k : Fin 1024, x0 (ix3 (0 : Fin 1) p k) * x1 (ix3 (0 : Fin 1) j k)) + x2 (ix3 (0 : Fin 1) (0 : Fin 1) j)) 0
      * x3 (ix3 (0 : Fin 1) j d)

theorem part_apply (p : Fin 256) (d : Fin 1024) : part x0 x1 x2 x3 (ix2 p d) = partialSum x0 x1 x2 x3 p d := by
  unfold part partialSum
  refine (ColsMatmul.cols_matmul dot_S256x1024_S1024x1024_S256x1024_1_0_0_1_n_n_wf _ rfl _ _ p d).trans
    (Finset.sum_congr rfl fun j _ => ?_)
  show act x0 x1 x2 (ix2 p j) * shapeCast S1024x1024 x3 _ (ix2 j d) = _
  rw [act_apply, shapeCast_1ab_ab_apply]

/-- The accumulating store at (p, d): the running total plus the point's addend. -/
theorem pay2_apply (p : Fin 256) (d : Fin 1024) :
    k0_pay2 (F := Ideal) x0 x1 x2 x3 acc (ix2 p d) = acc (ix2 p d) + partialSum x0 x1 x2 x3 p d := by
  rw [pay2_eq, shapeCast_self]
  show acc (ix2 p d) + part x0 x1 x2 x3 (ix2 p d) = _
  rw [part_apply]

/-- The resetting store's value is the zero block. -/
theorem pay1_eq : k0_pay1 (F := Ideal)
    = shapeCast S256x1024 (broadcast S256x1024 (Scalar.ofBits (F := Ideal) .f32 0x00000000#32)) shapeCasts_S256x1024_S256x1024 := rfl

theorem pay1_apply (i : S256x1024.Idx) : k0_pay1 (F := Ideal) i = 0 := by
  rw [pay1_eq, shapeCast_self]
  exact Ideal.ofBits_zero_f32

/-- The closing store's value is the running total plus the second bias laid along the rows, as a [1, 256, 1024] block. -/
theorem pay3_eq : k0_pay3 (F := Ideal) acc x4
    = shapeCast S1x256x1024 (addf acc
        (broadcastTo S256x1024 (shapeCast S1x1024 x4 shapeCasts_S1x1x1024_S1x1024) broadcasts_S1x1024_S256x1024))
      shapeCasts_S256x1024_S1x256x1024 := rfl

theorem pay3_apply (u : Fin 1) (p : Fin 256) (d : Fin 1024) :
    k0_pay3 (F := Ideal) acc x4 (ix3 u p d) = acc (ix2 p d) + x4 (ix3 (0 : Fin 1) (0 : Fin 1) d) := by
  rw [pay3_eq, shapeCast_ab_1ab_apply]
  show acc (ix2 p d)
    + broadcastTo S256x1024 (shapeCast S1x1024 x4 shapeCasts_S1x1x1024_S1x1024) broadcasts_S1x1024_S256x1024 (ix2 p d) = _
  rw [broadcastTo_1b_ab_apply, shapeCast_1ab_ab_apply]

end Cert.KernelIdeal.Payload

end
-- ==== Proof.KernelPieces.lean ====
/-
  What one run of the kernel's body leaves behind, in each of its three control cases, as values.

  On the first point of a run (hidden chunk 0) the body stores the zero block into the running total, reads it back, and
  stores "total + the point's partial product": the total ends at `0 + partial`. On a middle point it only
  accumulates. On the last point (hidden chunk 3) it accumulates and then stores "total + second bias" into the
  output block. Each store covers its whole buffer, so what a buffer holds afterwards is the last store's value, and
  every load reads a whole buffer, so the value loaded is the buffer's contents.
-/
import proofs.«118817_j6571299962932_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the running total `xs0` becomes the accumulating store's value over it. -/
theorem sout_B (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : ¬cond0_0 i) (hc1 : ¬cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz2]
  simp only [View.readAt_eq_ld, harg3.read_unread, harg4.read_unread, harg5.read_unread, harg6.read_unread,
    harg9.read_unread, View.ld_unit_zero (S := S1x256x1024) hz3, View.ld_unit_zero (S := S1x1024x1024) hz3,
    View.ld_unit_zero (S := S1x1x1024) hz3, View.ld_unit_zero (S := S256x1024) hz2]

/-- The first point of a run: the total is reset to the zero block and then accumulated into. -/
theorem sout_A (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : cond0_0 i) (hc1 : ¬cond0_1 i) (x0 : Vec F S1x256x1024 .f32) (x1 : Vec F S1x1024x1024 .f32) (x2 : Vec F S1x1x1024 .f32) (x3 : Vec F S1x1024x1024 .f32) (x4 : Vec F S1x1x1024 .f32) :
    sout0_A_0 c i arg3 harg3 arg4 harg4 arg5 harg5 arg6 harg6 arg7 harg7 arg8 harg8 arg9 harg9 hc0 hc1 x0 x1 x2 x3 x4 = k0_pay2 x0 x1 x2 x3 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x1024) hz2, View.readCov_unit_zero (S := S256x1024) _ hz2]
  simp only [View.readAt_eq_ld, harg3.read_unread, harg4.read_unread, harg5.read_unread, harg6.read_unread,
    View.ld_unit_zero (S := S1x256x1024) hz3, View.ld_unit_zero (S := S1x1024x1024) hz3,
    View.ld_unit_zero (S := S1x1x1024) hz3, View.ld_unit_zero (S := S256x1024) hz2]

/-- The last point of a run accumulates like a middle point, -/
theorem sout_C (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : ¬cond0_0 i) (hc1 : cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread,
    harg9.read_unread, View.ld_unit_zero (S := S1x256x1024) hz3, View.ld_unit_zero (S := S1x1024x1024) hz3,
    View.ld_unit_zero (S := S1x1x1024) hz3, View.ld_unit_zero (S := S256x1024) hz2]

/-- and leaves in the output block the closing store's value over the new total. -/
theorem out_C (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : ¬cond0_0 i) (hc1 : cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3]
  simp only [View.readAt_eq_ld, harg3.read_unread, harg4.read_unread, harg5.read_unread, harg6.read_unread,
    harg7.read_unread, harg9.read_unread, View.ld_unit_zero (S := S1x256x1024) hz3, View.ld_unit_zero (S := S1x1024x1024) hz3,
    View.ld_unit_zero (S := S1x1x1024) hz3, View.ld_unit_zero (S := S256x1024) hz2,
    View.readCov_unit_zero (S := S256x1024) _ hz2]

end Cert.KernelIdeal.Pieces

end
-- ==== Proof.KernelBlocks.lean ====
/-
  Which part of each argument array a grid point sees.

  The 512 grid points are numbered t = 64·e + 4·r + s with e < 8 the expert, r < 16 the token tile and s < 4 the hidden
  chunk (the chunk runs fastest): e = t / 64, r = t / 4 % 16, s = t % 4. At point t the token block is rows
  256·r … 256·r + 255 of expert e's tokens; the two weight blocks are rows 1024·s … 1024·s + 1023 of expert e's
  first- and second-layer weights; the first-bias block is entries 1024·s … of expert e's first bias; the second-bias
  block is expert e's whole second bias; and the output block is rows 256·r … of expert e's output. An entry of a
  block is the entry of the array at "block index × block size + position inside the block" on every axis.
-/
import proofs.«118817_j6571299962932_2_alg».proof.Proof.Gen.KernelIdeal.Frame
import Idealize.ShloMosaic.Lib.Pipeline.Value

noncomputable section

namespace Cert.KernelIdeal.Blocks

open Cert.KernelIdeal Cert.KernelIdeal.Gen Idealize.ShloMosaic Idealize.ShloMosaic.TcCoe Idealize.SL.Sem

/-! ## The printed index maps, decided once over the grid -/

theorem idx_0 : ∀ t : Fin cfg0.N, win0_0.index t (0 : Fin 3) = t.val / 64 ∧ win0_0.index t (1 : Fin 3) = t.val / 4 % 16 ∧ win0_0.index t (2 : Fin 3) = 0 :=
  (by decide +kernel : ∀ t : Fin grid0.N, win0_0.index t (0 : Fin 3) = t.val / 64 ∧ win0_0.index t (1 : Fin 3) = t.val / 4 % 16 ∧ win0_0.index t (2 : Fin 3) = 0)

theorem idx_1 : ∀ t : Fin cfg0.N, win0_1.index t (0 : Fin 3) = t.val / 64 ∧ win0_1.index t (1 : Fin 3) = t.val % 4 ∧ win0_1.index t (2 : Fin 3) = 0 :=
  (by decide +kernel : ∀ t : Fin grid0.N, win0_1.index t (0 : Fin 3) = t.val / 64 ∧ win0_1.index t (1 : Fin 3) = t.val % 4 ∧ win0_1.index t (2 : Fin 3) = 0)

theorem idx_2 : ∀ t : Fin cfg0.N, win0_2.index t (0 : Fin 3) = t.val / 64 ∧ win0_2.index t (1 : Fin 3) = 0 ∧ win0_2.index t (2 : Fin 3) = t.val % 4 :=
  (by decide +kernel : ∀ t : Fin grid0.N, win0_2.index t (0 : Fin 3) = t.val / 64 ∧ win0_2.index t (1 : Fin 3) = 0 ∧ win0_2.index t (2 : Fin 3) = t.val % 4)

theorem idx_3 : ∀ t : Fin cfg0.N, win0_3.index t (0 : Fin 3) = t.val / 64 ∧ win0_3.index t (1 : Fin 3) = t.val % 4 ∧ win0_3.index t (2 : Fin 3) = 0 :=
  (by decide +kernel : ∀ t : Fin grid0.N, win0_3.index t (0 : Fin 3) = t.val / 64 ∧ win0_3.index t (1 : Fin 3) = t.val % 4 ∧ win0_3.index t (2 : Fin 3) = 0)

theorem idx_4 : ∀ t : Fin cfg0.N, win0_4.index t (0 : Fin 3) = t.val / 64 ∧ win0_4.index t (1 : Fin 3) = 0 ∧ win0_4.index t (2 : Fin 3) = 0 :=
  (by decide +kernel : ∀ t : Fin grid0.N, win0_4.index t (0 : Fin 3) = t.val / 64 ∧ win0_4.index t (1 : Fin 3) = 0 ∧ win0_4.index t (2 : Fin 3) = 0)

theorem idx_5 : ∀ t : Fin cfg0.N, win0_5.index t (0 : Fin 3) = t.val / 64 ∧ win0_5.index t (1 : Fin 3) = t.val / 4 % 16 ∧ win0_5.index t (2 : Fin 3) = 0 :=
  (by decide +kernel : ∀ t : Fin grid0.N, win0_5.index t (0 : Fin 3) = t.val / 64 ∧ win0_5.index t (1 : Fin 3) = t.val / 4 % 16 ∧ win0_5.index t (2 : Fin 3) = 0)

/-! ## The input blocks read off the argument arrays -/

variable {F : FTy → Type} [FloatOps F]
variable (m : (ℓ : Loc nD τ sig) → Buf (Elt F) ℓ)

/-- The token block at point t: rows 256·(t/4%16) … of expert t/64's tokens. -/
theorem blk_x (c : Dev nD) (t : Fin cfg0.N) (y : S1x256x1024.Idx) (i : S8x4096x1024.Idx)
    (h0 : (i 0).val = t.val / 64) (h1 : (i 1).val = t.val / 4 % 16 * 256 + (y 1).val) (h2 : (i 2).val = (y 2).val) :
    (iblk m c 0 t : Vec F S1x256x1024 .f32) y = m ((c : Thread nD τ).loc main_arg0) i := by
  obtain ⟨e0, e1, e2⟩ := idx_0 t
  unfold iblk
  rw [View.read_apply]
  show m ((c : Thread nD τ).loc main_arg0) _ = m ((c : Thread nD τ).loc main_arg0) i
  congr 1
  funext a
  apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 256 + 1 * (y 1).val = (i 1).val; omega
  | ⟨2, _⟩ => show win0_0.index t (2 : Fin 3) * 1024 + 1 * (y 2).val = (i 2).val; omega

/-- The first-layer weight block at point t: rows 1024·(t%4) … of expert t/64's first-layer weights. -/
theorem blk_w1 (c : Dev nD) (t : Fin cfg0.N) (y : S1x1024x1024.Idx) (i : S8x4096x1024.Idx)
    (h0 : (i 0).val = t.val / 64) (h1 : (i 1).val = t.val % 4 * 1024 + (y 1).val) (h2 : (i 2).val = (y 2).val) :
    (iblk m c 1 t : Vec F S1x1024x1024 .f32) y = m ((c : Thread nD τ).loc main_arg1) i := by
  obtain ⟨e0, e1, e2⟩ := idx_1 t
  unfold iblk
  rw [View.read_apply]
  show m ((c : Thread nD τ).loc main_arg1) _ = m ((c : Thread nD τ).loc main_arg1) i
  congr 1
  funext a
  apply Fin.ext
  match a with
  | ⟨0, _⟩ => show win0_1.index t (0 : Fin 3) * 1 + 1 * (y 0).val = (i 0).val; have hy : (y 0).val < 1 := (y 0).isLt; omega
  | ⟨1, _⟩ => show win0_1.index t (1 : Fin 3) * 1024 + 1 * (y 1).val = (i 1).val; omega
  | ⟨2, _⟩ => show win0_1.index t (2 : Fin 3) * 1024 + 1 * (y 2).val = (i 2).val; omega

/-- The first-bias block at point t: entries 1024·(t%4) … of expert t/64's first bias. -/
theorem blk_b1 (c : Dev nD) (t : Fin cfg0.N) (y : S1x1x1024.Idx) (i : S8x1x4096.Idx)
    (h0 : (i 0).val = t.val / 64) (h1 : (i 1).val = (y 1).val) (h2 : (i 2).val = t.val % 4 * 1024 + (y 2).val) :
    (iblk m c 2 t : Vec F S1x1x1024 .f32) y = m ((c : Thread nD τ).loc main_arg2) i := by
  obtain ⟨e0, e1, e2⟩ := idx_2 t
  unfold iblk
  rw [View.read_apply]
  show m ((c : Thread nD τ).loc main_arg2) _ = m ((c : Thread nD τ).loc main_arg2) i
  congr 1
  funext a
  apply Fin.ext
  match a with
  | ⟨0, _⟩ => show win0_2.index t (0 : Fin 3) * 1 + 1 * (y 0).val = (i 0).val; have hy : (y 0).val < 1 := (y 0).isLt; omega
  | ⟨1, _⟩ => show win0_2.index t (1 : Fin 3) * 1 + 1 * (y 1).val = (i 1).val; omega
  | ⟨2, _⟩ => show win0_2.index t (2 : Fin 3) * 1024 + 1 * (y 2).val = (i 2).val; omega

/-- The second-layer weight block at point t: rows 1024·(t%4) … of expert t/64's second-layer weights. -/
theorem blk_w2 (c : Dev nD) (t : Fin cfg0.N) (y : S1x1024x1024.Idx) (i : S8x4096x1024.Idx)
    (h0 : (i 0).val = t.val / 64) (h1 : (i 1).val = t.val % 4 * 1024 + (y 1).val) (h2 : (i 2).val = (y 2).val) :
    (iblk m c 3 t : Vec F S1x1024x1024 .f32) y = m ((c : Thread nD τ).loc main_arg3) i := by
  obtain ⟨e0, e1, e2⟩ := idx_3 t
  unfold iblk
  rw [View.read_apply]
  show m ((c : Thread nD τ).loc main_arg3) _ = m ((c : Thread nD τ).loc main_arg3) i
  congr 1
  funext a
  apply Fin.ext
  match a with
  | ⟨0, _⟩ => show win0_3.index t (0 : Fin 3) * 1 + 1 * (y 0).val = (i 0).val; have hy : (y 0).val < 1 := (y 0).isLt; omega
  | ⟨1, _⟩ => show win0_3.index t (1 : Fin 3) * 1024 + 1 * (y 1).val = (i 1).val; omega
  | ⟨2, _⟩ => show win0_3.index t (2 : Fin 3) * 1024 + 1 * (y 2).val = (i 2).val; omega

/-- The second-bias block at point t: expert t/64's whole second bias. -/
theorem blk_b2 (c : Dev nD) (t : Fin cfg0.N) (y : S1x1x1024.Idx) (i : S8x1x1024.Idx)
    (h0 : (i 0).val = t.val / 64) (h1 : (i 1).val = (y 1).val) (h2 : (i 2).val = (y 2).val) :
    (iblk m c 4 t : Vec F S1x1x1024 .f32) y = m ((c : Thread nD τ).loc main_arg4) i := by
  obtain ⟨e0, e1, e2⟩ := idx_4 t
  unfold iblk
  rw [View.read_apply]
  show m ((c : Thread nD τ).loc main_arg4) _ = m ((c : Thread nD τ).loc main_arg4) i
  congr 1
  funext a
  apply Fin.ext
  match a with
  | ⟨0, _⟩ => show win0_4.index t (0 : Fin 3) * 1 + 1 * (y 0).val = (i 0).val; have hy : (y 0).val < 1 := (y 0).isLt; omega
  | ⟨1, _⟩ => show win0_4.index t (1 : Fin 3) * 1 + 1 * (y 1).val = (i 1).val; omega
  | ⟨2, _⟩ => show win0_4.index t (2 : Fin 3) * 1024 + 1 * (y 2).val = (i 2).val; omega

end Cert.KernelIdeal.Blocks

end
-- ==== Proof.LibChunkedSum.lean ====
/-
  A long sum cut into equal chunks.

  In any commutative monoid (no subtraction, no finiteness: the extended reals qualify) a sum over the first a*b
  naturals is the sum, over the a chunks s, of the sum over the b positions j inside chunk s of the term at s*b + j.
  Only associativity and commutativity of addition are used, so the regrouping holds whatever the summands are.
-/
import Mathlib.Algebra.BigOperators.Fin
import Mathlib.Algebra.BigOperators.Intervals

open Finset

namespace Cert.ChunkedSum

variable {β : Type*} [AddCommMonoid β]

/-- A sum over `range (a*b)` is the sum over the chunk number of the sums over the positions inside a chunk. -/
theorem sum_range_chunks (a b : ℕ) (f : ℕ → β) :
    ∑ h ∈ range (a * b), f h = ∑ s ∈ range a, ∑ j ∈ range b, f (s * b + j) := by
  induction a with
  | zero => simp
  | succ a ih => rw [Nat.succ_mul, Finset.sum_range_add, ih, Finset.sum_range_succ]

/-- The same with the long sum and the inner sums over `Fin`. -/
theorem sum_fin_chunks (a b : ℕ) (f : ℕ → β) :
    ∑ h : Fin (a * b), f h.val = ∑ s ∈ range a, ∑ j : Fin b, f (s * b + j.val) := by
  rw [Fin.sum_univ_eq_sum_range (fun h => f h) (a * b), sum_range_chunks]
  refine Finset.sum_congr rfl fun s _ => ?_
  rw [Fin.sum_univ_eq_sum_range (fun j => f (s * b + j)) b]

/-- A function on `Fin n` extended by zero to every natural. -/
def ext0 {n : ℕ} (g : Fin n → β) (k : ℕ) : β := if h : k < n then g ⟨k, h⟩ else 0

theorem ext0_val {n : ℕ} (g : Fin n → β) (h : Fin n) : ext0 g h.val = g h := by
  unfold ext0; rw [dif_pos h.isLt]

/-- A sum over `Fin (a*b)` of any function is the sum over the chunks of the chunk sums of its extension. -/
theorem sum_chunks_ext0 (a b : ℕ) (g : Fin (a * b) → β) :
    ∑ h : Fin (a * b), g h = ∑ s ∈ range a, ∑ j : Fin b, ext0 g (s * b + j.val) := by
  rw [← sum_fin_chunks a b (ext0 g)]
  exact Finset.sum_congr rfl fun h _ => (ext0_val g h).symm

end Cert.ChunkedSum
-- ==== Proof.MoeSpec.lean ====
/-
  The mathematics of a batch of two-layer perceptrons (one per expert), on the extended reals.

  For expert `e`, token `t` and output feature `d`,
    out(e,t,d) = (Σ_h max(Σ_k x(e,t,k) · w₁(e,h,k) + b₁(e,h), 0) · w₂(e,h,d)) + b₂(e,d),
  the hidden index `h` running over all 4096 hidden units and `k` over the 1024 model features. The 4096 hidden
  units split into 4 chunks of 1024, and the hidden sum is the sum over the chunks of the chunk sums — a regrouping of
  one sum, which needs only that addition is associative and commutative (true of the extended reals without any
  finiteness), and starting the running total at zero changes nothing.
-/
import Idealize.ShloMosaic.PureOps.Ideal
import Idealize.ShloMosaic.Lib.ValueIdx
import proofs.«118817_j6571299962932_2_alg».proof.Proof.LibChunkedSum

noncomputable section

namespace Cert.MoeSpec

open Idealize.ShloMosaic Idealize.ShloMosaic.ValueIdx Finset

/-- A rank-3 array of extended reals. -/
abbrev Arr3 (a b c : ℕ) : Type := (⟨3, ![a, b, c]⟩ : Shape).Idx → EReal

variable (X W1 : Arr3 8 4096 1024) (B1 : Arr3 8 1 4096) (W2 : Arr3 8 4096 1024) (B2 : Arr3 8 1 1024)

/-- Hidden unit `h` of token `t` of expert `e`, after the rectifier: `max(x(e,t,·)·w₁(e,h,·) + b₁(e,h), 0)`. -/
def hid (e : Fin 8) (t : Fin 4096) (h : Fin 4096) : EReal :=
  max ((∑ k : Fin 1024, X (ix3 e t k) * W1 (ix3 e h k)) + B1 (ix3 e (0 : Fin 1) h)) 0

/-- Hidden unit `h`'s contribution to output feature `d`. -/
def term (e : Fin 8) (t : Fin 4096) (d : Fin 1024) (h : Fin 4096) : EReal :=
  hid X W1 B1 e t h * W2 (ix3 e h d)

/-- The perceptron's output for expert `e`, token `t`, feature `d`. -/
def mlp (e : Fin 8) (t : Fin 4096) (d : Fin 1024) : EReal :=
  (∑ h : Fin 4096, term X W1 B1 W2 e t d h) + B2 (ix3 e (0 : Fin 1) d)

/-- The whole output array. -/
def out : Arr3 8 4096 1024 := fun i => mlp X W1 B1 W2 B2 (i 0) (i 1) (i 2)

/-- Chunk `s` of the hidden sum: the contributions of hidden units `s·1024 … s·1024 + 1023`. -/
def chunk (e : Fin 8) (t : Fin 4096) (d : Fin 1024) (s : ℕ) : EReal :=
  ∑ j : Fin 1024, ChunkedSum.ext0 (term X W1 B1 W2 e t d) (s * 1024 + j.val)

/-- Inside the array (`s < 4`) a chunk's summand is the contribution of hidden unit `s·1024 + j`. -/
theorem ext0_term (e : Fin 8) (t : Fin 4096) (d : Fin 1024) (s : ℕ) (j : Fin 1024) (h : s * 1024 + j.val < 4096) :
    ChunkedSum.ext0 (term X W1 B1 W2 e t d) (s * 1024 + j.val) = term X W1 B1 W2 e t d ⟨s * 1024 + j.val, h⟩ := by
  unfold ChunkedSum.ext0; rw [dif_pos h]

/-- The output is the zero-started running total of the four chunk sums, plus the second bias. -/
theorem mlp_eq_chunks (e : Fin 8) (t : Fin 4096) (d : Fin 1024) :
    (0 + ∑ s ∈ range 4, chunk X W1 B1 W2 e t d s) + B2 (ix3 e (0 : Fin 1) d) = mlp X W1 B1 W2 B2 e t d := by
  unfold mlp chunk
  rw [zero_add]
  exact congrArg (· + B2 (ix3 e (0 : Fin 1) d)) (ChunkedSum.sum_chunks_ext0 4 1024 (term X W1 B1 W2 e t d)).symm

end Cert.MoeSpec

end
-- ==== Proof.KernelFold.lean ====
/-
  The kernel's result array is the perceptron batch.

  A run of four consecutive grid points 4q, 4q+1, 4q+2, 4q+3 shares one expert e = q / 16 and one token tile r = q % 16
  and walks the four hidden chunks s = 0, 1, 2, 3. The running total is reset to zero at the run's first point and
  every point adds its partial product, so after the run's last point the total at (p, d) is
  0 + Σ_{s<4} (chunk s of the hidden sum for token 256·r + p and feature d); the last point stores that plus the
  second bias into the output block, which is block (e, r) of the result array. The four chunk sums regroup into the
  whole hidden sum (associativity and commutativity of + alone), so the block is the perceptron's. Every entry of the
  result array lies in the block some run's last point writes back, so the whole array is the perceptron batch.
-/
import proofs.«118817_j6571299962932_2_alg».proof.Proof.Gen.KernelIdeal.Value
import proofs.«118817_j6571299962932_2_alg».proof.Proof.KernelPayload
import proofs.«118817_j6571299962932_2_alg».proof.Proof.KernelPieces
import proofs.«118817_j6571299962932_2_alg».proof.Proof.KernelBlocks
import proofs.«118817_j6571299962932_2_alg».proof.Proof.MoeSpec

noncomputable section

namespace Cert.KernelIdeal.Fold

open Cert.KernelIdeal Cert.KernelIdeal.Gen Cert.KernelIdeal.Value Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (ρ : Dev nD → PrngReg)

/-- The argument arrays on core `c`: tokens, first-layer weights and biases, second-layer weights and biases. -/
abbrev X (c : Dev nD) : MoeSpec.Arr3 8 4096 1024 := m ((c : Thread nD τ).loc main_arg0)
abbrev W1 (c : Dev nD) : MoeSpec.Arr3 8 4096 1024 := m ((c : Thread nD τ).loc main_arg1)
abbrev B1 (c : Dev nD) : MoeSpec.Arr3 8 1 4096 := m ((c : Thread nD τ).loc main_arg2)
abbrev W2 (c : Dev nD) : MoeSpec.Arr3 8 4096 1024 := m ((c : Thread nD τ).loc main_arg3)
abbrev B2 (c : Dev nD) : MoeSpec.Arr3 8 1 1024 := m ((c : Thread nD τ).loc main_arg4)

/-- What the result array ends holding: the perceptron batch of the argument arrays. -/
abbrev result (c : Dev nD) : Buf (Elt Ideal) ((c : Thread nD τ).loc main_v0) :=
  MoeSpec.out (X m c) (W1 m c) (B1 m c) (W2 m c) (B2 m c)

/-! ## One point's partial product is one chunk of the hidden sum -/

/-- At point t the partial product at (p, d) is chunk t % 4 of the hidden sum for expert t / 64, token
    256·(t/4%16) + p and feature d: the blocks are those rows of the argument arrays. -/
theorem partial_eq_chunk (c : Dev nD) (t : Fin cfg0.N) (p : Fin 256) (d : Fin 1024) (e : Fin 8) (tk : Fin 4096)
    (he : e.val = t.val / 64) (htk : tk.val = t.val / 4 % 16 * 256 + p.val) :
    Payload.partialSum (iblk m c 0 t) (iblk m c 1 t) (iblk m c 2 t) (iblk m c 3 t) p d
      = MoeSpec.chunk (X m c) (W1 m c) (B1 m c) (W2 m c) e tk d (t.val % 4) := by
  unfold Payload.partialSum MoeSpec.chunk
  refine Finset.sum_congr rfl fun j _ => ?_
  have hj : t.val % 4 * 1024 + j.val < 4096 := by have := j.isLt; omega
  rw [MoeSpec.ext0_term (X m c) (W1 m c) (B1 m c) (W2 m c) e tk d (t.val % 4) j hj]
  unfold MoeSpec.term MoeSpec.hid
  have e1 : ∀ k : Fin 1024, (iblk m c 0 t : Vec Ideal S1x256x1024 .f32) (ix3 (0 : Fin 1) p k) = X m c (ix3 e tk k) :=
    fun k => Blocks.blk_x m c t (ix3 (0 : Fin 1) p k) (ix3 e tk k) he htk rfl
  have e2 : ∀ k : Fin 1024, (iblk m c 1 t : Vec Ideal S1x1024x1024 .f32) (ix3 (0 : Fin 1) j k)
      = W1 m c (ix3 e (⟨t.val % 4 * 1024 + j.val, hj⟩ : Fin 4096) k) :=
    fun k => Blocks.blk_w1 m c t (ix3 (0 : Fin 1) j k) (ix3 e (⟨t.val % 4 * 1024 + j.val, hj⟩ : Fin 4096) k) he rfl rfl
  have e3 : (iblk m c 2 t : Vec Ideal S1x1x1024 .f32) (ix3 (0 : Fin 1) (0 : Fin 1) j)
      = B1 m c (ix3 e (0 : Fin 1) (⟨t.val % 4 * 1024 + j.val, hj⟩ : Fin 4096)) :=
    Blocks.blk_b1 m c t (ix3 (0 : Fin 1) (0 : Fin 1) j) (ix3 e (0 : Fin 1) (⟨t.val % 4 * 1024 + j.val, hj⟩ : Fin 4096)) he rfl rfl
  have e4 : (iblk m c 3 t : Vec Ideal S1x1024x1024 .f32) (ix3 (0 : Fin 1) j d)
      = W2 m c (ix3 e (⟨t.val % 4 * 1024 + j.val, hj⟩ : Fin 4096) d) :=
    Blocks.blk_w2 m c t (ix3 (0 : Fin 1) j d) (ix3 e (⟨t.val % 4 * 1024 + j.val, hj⟩ : Fin 4096) d) he rfl rfl
  rw [e3, e4, Finset.sum_congr rfl fun k _ => by rw [e1 k, e2 k]]

/-! ## The running total over a run of four points -/

/-- Point `n`'s addend to the running total (zero past the grid, where it is never used). -/
def addend (c : Dev nD) (n : ℕ) (i : S256x1024.Idx) : EReal :=
  if h : n < cfg0.N then Payload.partialSum (iblk m c 0 ⟨n, h⟩) (iblk m c 1 ⟨n, h⟩) (iblk m c 2 ⟨n, h⟩) (iblk m c 3 ⟨n, h⟩) (i 0) (i 1) else 0

/-- At a run's first point the total is reset and accumulated into once. -/
theorem scAt_first (c : Dev nD) (n : ℕ) (h : n < cfg0.N) (h0 : n % 4 = 0) (acc : Vec Ideal S256x1024 .f32) :
    scAt0_0 m c n h acc = k0_pay2 (F := Ideal) (iblk m c 0 ⟨n, h⟩) (iblk m c 1 ⟨n, h⟩) (iblk m c 2 ⟨n, h⟩) (iblk m c 3 ⟨n, h⟩) (k0_pay1 (F := Ideal)) := by
  have h1 : ¬n % 4 = 3 := by omega
  unfold scAt0_0
  rw [dif_pos h0, dif_neg h1]
  exact Pieces.sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩) (iblk m c 2 ⟨n, h⟩) (iblk m c 3 ⟨n, h⟩) (iblk m c 4 ⟨n, h⟩)

/-- At every other point of a run the total is accumulated into. -/
theorem scAt_later (c : Dev nD) (n : ℕ) (h : n < cfg0.N) (h0 : ¬n % 4 = 0) (acc : Vec Ideal S256x1024 .f32) :
    scAt0_0 m c n h acc = k0_pay2 (F := Ideal) (iblk m c 0 ⟨n, h⟩) (iblk m c 1 ⟨n, h⟩) (iblk m c 2 ⟨n, h⟩) (iblk m c 3 ⟨n, h⟩) acc := by
  unfold scAt0_0
  rw [dif_neg h0]
  by_cases h1 : n % 4 = 3
  · rw [dif_pos h1]
    exact Pieces.sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (fun hh => h0 ((hcond0_0 ⟨n, h⟩).mp hh)) ((hcond0_1 ⟨n, h⟩).mpr h1)
      (iblk m c 0 ⟨n, h⟩) (iblk m c 1 ⟨n, h⟩) (iblk m c 2 ⟨n, h⟩) (iblk m c 3 ⟨n, h⟩) (iblk m c 4 ⟨n, h⟩) acc
  · rw [dif_neg h1]
    exact Pieces.sout_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) (fun hh => h0 ((hcond0_0 ⟨n, h⟩).mp hh)) (fun hh => h1 ((hcond0_1 ⟨n, h⟩).mp hh))
      (iblk m c 0 ⟨n, h⟩) (iblk m c 1 ⟨n, h⟩) (iblk m c 2 ⟨n, h⟩) (iblk m c 3 ⟨n, h⟩) (iblk m c 4 ⟨n, h⟩) acc

/-- After the last point of a run the total is the zero-started sum of the run's four addends. -/
theorem total_at_last (c : Dev nD) (t : Fin cfg0.N) (h3 : t.val % 4 = 3) (i : S256x1024.Idx) :
    (outsAt0 m c t.val t.isLt).2 i = 0 + ∑ s ∈ Finset.range 4, addend m c (4 * (t.val / 4) + s) i := by
  have key := Pipeline.accAt_add_apply (fun n h => scAt0_0 m c n h (VS0_0.read (Elt Ideal) VS0_0.junk)) (scAt0_0 m c)
    (fun _ => (0 : EReal)) (addend m c) (4 * (t.val / 4)) 3
    (fun h i => by
      rw [scAt_first m c _ h (Nat.mul_mod_right 4 _)]
      obtain ⟨p, d, rfl⟩ : ∃ (p : Fin 256) (d : Fin 1024), i = ix2 p d := ⟨i 0, i 1, eq_ix2 i⟩
      rw [Payload.pay2_apply, Payload.pay1_apply]
      unfold addend; rw [dif_pos h])
    (fun n h acc i hlo hhi => by
      rw [scAt_later m c n h (by omega)]
      obtain ⟨p, d, rfl⟩ : ∃ (p : Fin 256) (d : Fin 1024), i = ix2 p d := ⟨i 0, i 1, eq_ix2 i⟩
      rw [Payload.pay2_apply]
      unfold addend; rw [dif_pos h])
  rw [soutsAt0_0_eq m c t]
  refine (key (t.val % 4) (by omega) _ i).trans ?_
  rw [h3]

/-- At a run's last point the output block holds the closing store's value over the total the point leaves. -/
theorem out_at_last (c : Dev nD) (t : Fin cfg0.N) (h3 : t.val % 4 = 3) :
    (outsAt0 m c t.val t.isLt).1 = k0_pay3 (F := Ideal) ((outsAt0 m c t.val t.isLt).2) (iblk m c 4 t) := by
  have h0 : ¬t.val % 4 = 0 := by omega
  rw [outsAt0_C m c t h0 h3]
  dsimp only
  exact (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h3)
      (iblk m c 0 t) (iblk m c 1 t) (iblk m c 2 t) (iblk m c 3 t) (iblk m c 4 t) _).trans
    (congrArg (fun z => k0_pay3 (F := Ideal) z (iblk m c 4 t))
      (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h3)
        (iblk m c 0 t) (iblk m c 1 t) (iblk m c 2 t) (iblk m c 3 t) (iblk m c 4 t) _).symm)

/-! ## What a run's last point writes back, and the whole array -/

/-- An index of the result array is in point t's output block iff each coordinate is in the block's range on its axis. -/
theorem mem_blk (t : Fin cfg0.N) (i : S8x4096x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v0).slice (win0_5.rect t)).set ↔ _
  rw [View.set_slice_whole, Rect.mem_set_unit]
  exact Iff.rfl

/-- WHAT A WRITING POINT WRITES BACK is its block of the perceptron batch: the point is a run's last, the total it
    leaves is the four chunk sums, and the chunks regroup into the whole hidden sum. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have hN : t.val < 512 := lt_of_lt_of_eq t.isLt (show cfg0.N = 512 from N_0)
  obtain ⟨e0, e1, e2⟩ := Blocks.idx_5 t
  rw [flushed5, out_at_last m c t h3]
  funext y
  obtain ⟨u, p, d, rfl⟩ : ∃ (u : Fin 1) (p : Fin 256) (d : Fin 1024), y = ix3 u p d := ⟨y 0, y 1, y 2, eq_ix3 y⟩
  obtain ⟨e, he⟩ : ∃ e : Fin 8, e.val = t.val / 64 := ⟨⟨t.val / 64, by omega⟩, rfl⟩
  obtain ⟨tk, htk⟩ : ∃ tk : Fin 4096, tk.val = t.val / 4 % 16 * 256 + p.val :=
    ⟨⟨t.val / 4 % 16 * 256 + p.val, by have := p.isLt; omega⟩, rfl⟩
  have hemb : ((cfg0.win 5).blk t).view.emb (ix3 u p d) = (ix3 e tk d : S8x4096x1024.Idx) := by
    funext a
    apply Fin.ext
    match a with
    | ⟨0, _⟩ => show win0_5.index t (0 : Fin 3) * 1 + 1 * u.val = e.val; have hu : u.val < 1 := u.isLt; omega
    | ⟨1, _⟩ => show win0_5.index t (1 : Fin 3) * 256 + 1 * p.val = tk.val; omega
    | ⟨2, _⟩ => show win0_5.index t (2 : Fin 3) * 1024 + 1 * d.val = d.val; omega
  show k0_pay3 (F := Ideal) ((outsAt0 m c t.val t.isLt).2) (iblk m c 4 t) (ix3 u p d)
    = result m c (((cfg0.win 5).blk t).view.emb (ix3 u p d))
  rw [hemb, Payload.pay3_apply, total_at_last m c t h3]
  show _ = MoeSpec.mlp (X m c) (W1 m c) (B1 m c) (W2 m c) (B2 m c) e tk d
  rw [← MoeSpec.mlp_eq_chunks]
  have hb : (iblk m c 4 t : Vec Ideal S1x1x1024 .f32) (ix3 (0 : Fin 1) (0 : Fin 1) d) = B2 m c (ix3 e (0 : Fin 1) d) :=
    Blocks.blk_b2 m c t (ix3 (0 : Fin 1) (0 : Fin 1) d) (ix3 e (0 : Fin 1) d) he rfl rfl
  have hs : ∀ s ∈ Finset.range 4, addend m c (4 * (t.val / 4) + s) (ix2 p d)
      = MoeSpec.chunk (X m c) (W1 m c) (B1 m c) (W2 m c) e tk d s := by
    intro s hs
    have hs4 : s < 4 := Finset.mem_range.mp hs
    have hn : 4 * (t.val / 4) + s < cfg0.N :=
      lt_of_lt_of_eq (by omega : 4 * (t.val / 4) + s < 512) (show cfg0.N = 512 from N_0).symm
    unfold addend
    rw [dif_pos hn]
    refine (partial_eq_chunk m c ⟨4 * (t.val / 4) + s, hn⟩ p d e tk
      (by show e.val = (4 * (t.val / 4) + s) / 64; omega)
      (by show tk.val = (4 * (t.val / 4) + s) / 4 % 16 * 256 + p.val; omega)).trans ?_
    show MoeSpec.chunk _ _ _ _ _ _ _ ((4 * (t.val / 4) + s) % 4) = _
    rw [show (4 * (t.val / 4) + s) % 4 = s by omega]
  rw [hb, Finset.sum_congr rfl hs]

/-- Every entry (e, r, d) of the result array is in the block written back by the last point of the run of expert e
    and token tile r / 256. -/
theorem cover (i : S8x4096x1024.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 1024 := (i 2).isLt
  have hN : cfg0.N = 512 := N_0
  have hlt : 64 * (i 0).val + 4 * ((i 1).val / 256) + 3 < cfg0.N := by rw [hN]; omega
  refine ⟨⟨64 * (i 0).val + 4 * ((i 1).val / 256) + 3, hlt⟩,
    (flush0_5 _).mpr (by show (64 * (i 0).val + 4 * ((i 1).val / 256) + 3) % 4 = 3; omega), ?_⟩
  obtain ⟨e0, e1, e2⟩ := Blocks.idx_5 ⟨64 * (i 0).val + 4 * ((i 1).val / 256) + 3, hlt⟩
  dsimp only at e0 e1 e2
  rw [mem_blk]
  intro a
  match a with
  | ⟨0, _⟩ =>
    show win0_5.index _ (0 : Fin 3) * 1 ≤ (i 0).val ∧ (i 0).val < win0_5.index _ (0 : Fin 3) * 1 + 1
    rw [e0]; omega
  | ⟨1, _⟩ =>
    show win0_5.index _ (1 : Fin 3) * 256 ≤ (i 1).val ∧ (i 1).val < win0_5.index _ (1 : Fin 3) * 256 + 256
    rw [e1]; omega
  | ⟨2, _⟩ =>
    show win0_5.index _ (2 : Fin 3) * 1024 ≤ (i 2).val ∧ (i 2).val < win0_5.index _ (2 : Fin 3) * 1024 + 1024
    rw [e2]; omega

/-- So the result array ends holding the perceptron batch of the argument arrays. -/
theorem final (c : Dev nD) : (dats m 0 c).arrAt 5 cfg0.N = result m c :=
  (dats m 0 c).arrAt_eq_of_cover 5 (result m c) (fun t hf => flushed_eq m c t hf) cover

/-- The kernel's run, read: the result array at the perceptron batch, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Fold

end
-- ==== Proof.RefIsSpec.lean ====
/-
  The reference computes the perceptron batch: its result array, read entry by entry, is `MoeSpec.out`.

  Entry (e, t, d) of the reference's result is the second general product's sum over all 4096 hidden units h of
  `max(Σ_k x(e,t,k)·w₁(e,h,k) + b₁(e,0,h), 0) · w₂(e,h,d)`, plus the broadcast second bias `b₂(e,0,d)`.
-/
import proofs.«118817_j6571299962932_2_alg».proof.Proof.Gen.ReferenceIdeal.Read
import proofs.«118817_j6571299962932_2_alg».proof.Proof.MoeSpec

noncomputable section

namespace Cert.ReferenceIdeal.RefValue

open Cert.ReferenceIdeal Cert.ReferenceIdeal.Read Idealize.ShloMosaic Idealize.ShloMosaic.ValueIdx

/-- The second bias is read at (e, 0, d). -/
theorem idx5 (e : Fin 8) (t : Fin 4096) (d : Fin 1024) : idx_main_v5 (ix3 e t d) = ix3 e (0 : Fin 1) d :=
  funext fun a => Fin.ext (by match a with | ⟨0, _⟩ => rfl | ⟨1, _⟩ => rfl | ⟨2, _⟩ => rfl)
/-- The second product's left factor at hidden unit h is the activation at (e, t, h), -/
theorem lidx4 (e : Fin 8) (t : Fin 4096) (d : Fin 1024) (h : Fin 4096) : lidx_main_v4 (ix3 e t d) h = ix3 e t h :=
  funext fun a => Fin.ext (by match a with | ⟨0, _⟩ => rfl | ⟨1, _⟩ => rfl | ⟨2, _⟩ => rfl)
/-- its right factor the weight at (e, h, d). -/
theorem ridx4 (e : Fin 8) (t : Fin 4096) (d : Fin 1024) (h : Fin 4096) : ridx_main_v4 (ix3 e t d) h = ix3 e h d :=
  funext fun a => Fin.ext (by match a with | ⟨0, _⟩ => rfl | ⟨1, _⟩ => rfl | ⟨2, _⟩ => rfl)
/-- The first bias is read at (e, 0, h). -/
theorem idx1 (e : Fin 8) (t : Fin 4096) (h : Fin 4096) : idx_main_v1 (ix3 e t h) = ix3 e (0 : Fin 1) h :=
  funext fun a => Fin.ext (by match a with | ⟨0, _⟩ => rfl | ⟨1, _⟩ => rfl | ⟨2, _⟩ => rfl)
/-- The first product's left factor at feature k is the token's entry (e, t, k), -/
theorem lidx0 (e : Fin 8) (t : Fin 4096) (h : Fin 4096) (k : Fin 1024) : lidx_main_v0 (ix3 e t h) k = ix3 e t k :=
  funext fun a => Fin.ext (by match a with | ⟨0, _⟩ => rfl | ⟨1, _⟩ => rfl | ⟨2, _⟩ => rfl)
/-- its right factor the weight at (e, h, k). -/
theorem ridx0 (e : Fin 8) (t : Fin 4096) (h : Fin 4096) (k : Fin 1024) : ridx_main_v0 (ix3 e t h) k = ix3 e h k :=
  funext fun a => Fin.ext (by match a with | ⟨0, _⟩ => rfl | ⟨1, _⟩ => rfl | ⟨2, _⟩ => rfl)

/-- The reference's result is the perceptron batch. -/
theorem result_eq (x0 x1 : MoeSpec.Arr3 8 4096 1024) (x2 : MoeSpec.Arr3 8 1 4096) (x3 : MoeSpec.Arr3 8 4096 1024)
    (x4 : MoeSpec.Arr3 8 1 1024) :
    val_main_v6 (F := Ideal) x0 x1 x2 x3 x4 = MoeSpec.out x0 x1 x2 x3 x4 := by
  funext i
  obtain ⟨e, t, d, rfl⟩ : ∃ (e : Fin 8) (t : Fin 4096) (d : Fin 1024), i = ix3 e t d := ⟨i 0, i 1, i 2, eq_ix3 i⟩
  have hterm : ∀ h : Fin 4096,
      val_main_v3 (F := Ideal) x0 x1 x2 (lidx_main_v4 (ix3 e t d) h) * x3 (ridx_main_v4 (ix3 e t d) h)
        = MoeSpec.term x0 x1 x2 x3 e t d h := by
    intro h
    rw [lidx4, ridx4, val_main_v3_apply, val_main_v2_apply, val_main_v0_apply, val_main_v1_apply,
      val_main_call0_v0_apply, val_main_call0_cst_apply, idx1]
    simp only [lidx0, ridx0]
    show max (_ + _) (Ideal.ofBits .f32 0x00000000#32) * _ = _
    rw [Ideal.ofBits_zero_f32]
    rfl
  rw [val_main_v6_apply, val_main_v4_apply, val_main_v5_apply, idx5]
  show (∑ h : Fin 4096, _) + _ = (∑ h : Fin 4096, MoeSpec.term x0 x1 x2 x3 e t d h) + _
  rw [Finset.sum_congr rfl fun h _ => hterm h]

end Cert.ReferenceIdeal.RefValue

end
-- ==== Proof.lean ====
/-
  A batch of eight two-layer perceptrons, computed tile by tile, against the whole-array formula.

  The kernel walks a grid of 8 experts × 16 token tiles × 4 hidden chunks. For a fixed expert and token tile it keeps a
  running total [256, 1024]: zeroed at hidden chunk 0, and at every chunk increased by
  max(x·w₁ᵀ + b₁, 0)·w₂ restricted to that chunk's 1024 hidden units; after chunk 3 it adds the second bias and writes
  the block out. The reference forms max(x·w₁ᵀ + b₁, 0) over all 4096 hidden units at once, multiplies by w₂ and adds
  the bias. On the extended reals both are
    out(e,t,d) = (Σ_h max(Σ_k x(e,t,k)·w₁(e,h,k) + b₁(e,h), 0)·w₂(e,h,d)) + b₂(e,d):
  the kernel's side is that sum cut into four chunks and added from zero, and regrouping a sum needs only that addition
  is associative and commutative, so no finiteness of the inputs is used. The casts to the short float format before
  each product are the identity on the extended reals.

  The three frames are the generated frame runs (the reference's is its generated run with the result dropped), the
  idealization rewrote nothing, and the value claim sets the kernel's run (`Fold.run`) beside the reference's run, both
  ending at `MoeSpec.out` of arguments that agree.
-/
import proofs.«118817_j6571299962932_2_alg».proof.Defs
import proofs.«118817_j6571299962932_2_alg».proof.Proof.Gen.Kernel
import proofs.«118817_j6571299962932_2_alg».proof.Proof.Gen.Kernel.Skeleton
import proofs.«118817_j6571299962932_2_alg».proof.Proof.Gen.Kernel.Launch
import proofs.«118817_j6571299962932_2_alg».proof.Proof.Gen.Kernel.Points
import proofs.«118817_j6571299962932_2_alg».proof.Proof.Gen.Kernel.Frame
import proofs.«118817_j6571299962932_2_alg».proof.Proof.Gen.KernelIdeal
import proofs.«118817_j6571299962932_2_alg».proof.Proof.Gen.KernelIdeal.Skeleton
import proofs.«118817_j6571299962932_2_alg».proof.Proof.Gen.KernelIdeal.Launch
import proofs.«118817_j6571299962932_2_alg».proof.Proof.Gen.KernelIdeal.Points
import proofs.«118817_j6571299962932_2_alg».proof.Proof.Gen.KernelIdeal.Frame
import proofs.«118817_j6571299962932_2_alg».proof.Proof.Gen.ReferenceIdeal
import proofs.«118817_j6571299962932_2_alg».proof.Proof.Gen.Pre_finite_inputs
import proofs.«118817_j6571299962932_2_alg».proof.Proof.Gen.KernelIdeal.Value
import proofs.«118817_j6571299962932_2_alg».proof.Proof.Gen.ReferenceIdeal.Run
import proofs.«118817_j6571299962932_2_alg».proof.Proof.Gen.ReferenceIdeal.Read
import proofs.«118817_j6571299962932_2_alg».proof.Proof.KernelFold
import proofs.«118817_j6571299962932_2_alg».proof.Proof.RefIsSpec
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- Both programs end with the perceptron batch of arguments that agree. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v6_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
